-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8198x8192 : Shape := ⟨2, ![8198, 8192]⟩
abbrev S8198 : Shape := ⟨1, ![8198]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8198x8192 : S_.BroadcastsInDim S8198x8192 (![] : Fin 0 → Fin S8198x8192.rank)
  reducesTo_S8198x8192_S_d0_1 : S8198x8192.ReducesTo [0, 1] S_
  bcast_S_S8198 : S_.BroadcastsInDim S8198 (![] : Fin 0 → Fin S8198.rank)
  reducesTo_S8198_S_d0 : S8198.ReducesTo [0] S_

variable [Facts]

def fn {F : FTy → Type} [FloatOps F] (main_arg0 : FVec F S4096x8192 .f32) (main_arg1 : FVec F S8198x8192 .f32) (main_arg2 : FVec F S8198 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8198x8192 .f32 := Host.absf main_arg1
  let main_cst_0 : FVec F S_ .f32 := constant S_ .f32 0x7F800000#32
  let main_v5 : FVec F S8198x8192 .f32 := broadcastInDim S8198x8192 ![] bcast_S_S8198x8192 main_cst_0
  let main_v6 : IVec S8198x8192 1 := cmpf .olt main_v4 main_v5
  let main_c_1 : IVec S_ 1 := constantI S_ 1 1#1
  let main_v7 : IVec S_ 1 := (fun x v => Host.reduce IntOp.andi x v reducesTo_S8198x8192_S_d0_1 h_S_) main_v6 main_c_1
  let main_v8 : IVec S_ 1 := andi main_v3 main_v7
  let main_v9 : FVec F S8198 .f32 := Host.absf main_arg2
  let main_cst_2 : FVec F S_ .f32 := constant S_ .f32 0x7F800000#32
  let main_v10 : FVec F S8198 .f32 := broadcastInDim S8198 ![] bcast_S_S8198 main_cst_2
  let main_v11 : IVec S8198 1 := cmpf .olt main_v9 main_v10
  let main_c_3 : IVec S_ 1 := constantI S_ 1 1#1
  let main_v12 : IVec S_ 1 := (fun x v => Host.reduce IntOp.andi x v reducesTo_S8198_S_d0 h_S_) main_v11 main_c_3
  let main_v13 : IVec S_ 1 := andi main_v8 main_v12
  main_v13
-- ==== Kernel.lean ====
abbrev S4096x8192 : Shape := ⟨2, ![4096, 8192]⟩
abbrev S8198x8192 : Shape := ⟨2, ![8198, 8192]⟩
abbrev S8198 : Shape := ⟨1, ![8198]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S1 : Shape := ⟨1, ![1]⟩
abbrev S8194 : Shape := ⟨1, ![8194]⟩
abbrev S1x8192 : Shape := ⟨2, ![1, 8192]⟩
abbrev S1x8194 : Shape := ⟨2, ![1, 8194]⟩
abbrev S4096x8194 : Shape := ⟨2, ![4096, 8194]⟩
abbrev S64x8192 : Shape := ⟨2, ![64, 8192]⟩
abbrev S64x8194 : Shape := ⟨2, ![64, 8194]⟩
abbrev S64x8191 : Shape := ⟨2, ![64, 8191]⟩
abbrev S1x8191 : Shape := ⟨2, ![1, 8191]⟩
abbrev S64x8190 : Shape := ⟨2, ![64, 8190]⟩
abbrev S1x8190 : Shape := ⟨2, ![1, 8190]⟩
abbrev S64x2 : Shape := ⟨2, ![64, 2]⟩
abbrev S64x3 : Shape := ⟨2, ![64, 3]⟩
abbrev S64x4 : Shape := ⟨2, ![64, 4]⟩

abbrev nBuf : Space → Nat
  | .hbm => 91
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8198x8192, .f32⟩
  | .hbm, ⟨2, _⟩ => ⟨S8198, .f32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x1, .i32⟩
  | .hbm, ⟨23, _⟩ => ⟨S8192x2, .i32⟩
  | .hbm, ⟨24, _⟩ => ⟨S8192, .f32⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S8192x1, .i32⟩
  | .hbm, ⟨44, _⟩ => ⟨S8192x2, .i32⟩
  | .hbm, ⟨45, _⟩ => ⟨S8192, .f32⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .i32⟩
  | .hbm, ⟨56, _⟩ => ⟨S_, .i32⟩
  | .hbm, ⟨57, _⟩ => ⟨S8192, .i32⟩
  | .hbm, ⟨58, _⟩ => ⟨S8192, .i1⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S8192, .i32⟩
  | .hbm, ⟨63, _⟩ => ⟨S8192x1, .i32⟩
  | .hbm, ⟨64, _⟩ => ⟨S8192x1, .i32⟩
  | .hbm, ⟨65, _⟩ => ⟨S8192x2, .i32⟩
  | .hbm, ⟨66, _⟩ => ⟨S8192, .f32⟩
  | .hbm, ⟨67, _⟩ => ⟨S_, .f32⟩
  | .hbm, ⟨68, _⟩ => ⟨S8198, .f32⟩
  | .hbm, ⟨69, _⟩ => ⟨S_, .i32⟩
  | .hbm, ⟨70, _⟩ => ⟨S1, .i32⟩
  | .hbm, ⟨71, _⟩ => ⟨S_, .f32⟩
  | .hbm, ⟨72, _⟩ => ⟨S8192, .f32⟩
  | .hbm, ⟨73, _⟩ => ⟨S8198, .f32⟩
  | .hbm, ⟨74, _⟩ => ⟨S_, .i32⟩
  | .hbm, ⟨75, _⟩ => ⟨S1, .i32⟩
  | .hbm, ⟨76, _⟩ => ⟨S_, .f32⟩
  | .hbm, ⟨77, _⟩ => ⟨S8192, .f32⟩
  | .hbm, ⟨78, _⟩ => ⟨S8198, .f32⟩
  | .hbm, ⟨79, _⟩ => ⟨S_, .i32⟩
  | .hbm, ⟨80, _⟩ => ⟨S1, .i32⟩
  | .hbm, ⟨81, _⟩ => ⟨S_, .f32⟩
  | .hbm, ⟨82, _⟩ => ⟨S8192, .f32⟩
  | .hbm, ⟨83, _⟩ => ⟨S8198, .f32⟩
  | .hbm, ⟨84, _⟩ => ⟨S8198, .f32⟩
  | .hbm, ⟨85, _⟩ => ⟨S8194, .f32⟩
  | .hbm, ⟨86, _⟩ => ⟨S1x8192, .f32⟩
  | .hbm, ⟨87, _⟩ => ⟨S1x8192, .f32⟩
  | .hbm, ⟨88, _⟩ => ⟨S1x8192, .f32⟩
  | .hbm, ⟨89, _⟩ => ⟨S1x8194, .f32⟩
  | .hbm, ⟨90, _⟩ => ⟨S4096x8194, .f32⟩
  | .local _ .vmem, ⟨0, _⟩ => ⟨S64x8192, .f32⟩
  | .local _ .vmem, ⟨1, _⟩ => ⟨S64x8192, .f32⟩
  | .local _ .vmem, ⟨2, _⟩ => ⟨S1x8192, .f32⟩
  | .local _ .vmem, ⟨3, _⟩ => ⟨S1x8192, .f32⟩
  | .local _ .vmem, ⟨4, _⟩ => ⟨S1x8192, .f32⟩
  | .local _ .vmem, ⟨5, _⟩ => ⟨S1x8194, .f32⟩
  | .local _ .vmem, ⟨6, _⟩ => ⟨S64x8194, .f32⟩
  | .local _ .vmem, ⟨7, _⟩ => ⟨S64x8194, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_c_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_9 : Ref sig .tc := ⟨.hbm, 46, rfl⟩
abbrev main_v33 : Ref sig .tc := ⟨.hbm, 47, rfl⟩
abbrev main_v34 : Ref sig .tc := ⟨.hbm, 48, rfl⟩
abbrev main_c_10 : Ref sig .tc := ⟨.hbm, 49, rfl⟩
abbrev main_v35 : Ref sig .tc := ⟨.hbm, 50, rfl⟩
abbrev main_v36 : Ref sig .tc := ⟨.hbm, 51, rfl⟩
abbrev main_c_11 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_12 : Ref sig .tc := ⟨.hbm, 56, rfl⟩
abbrev main_v40 : Ref sig .tc := ⟨.hbm, 57, rfl⟩
abbrev main_v41 : Ref sig .tc := ⟨.hbm, 58, rfl⟩
abbrev main_c_13 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst : Ref sig .tc := ⟨.hbm, 67, rfl⟩
abbrev main_v49 : Ref sig .tc := ⟨.hbm, 68, rfl⟩
abbrev main_c_14 : Ref sig .tc := ⟨.hbm, 69, rfl⟩
abbrev main_v50 : Ref sig .tc := ⟨.hbm, 70, rfl⟩
abbrev main_cst_15 : Ref sig .tc := ⟨.hbm, 71, rfl⟩
abbrev main_v51 : Ref sig .tc := ⟨.hbm, 72, rfl⟩
abbrev main_v52 : Ref sig .tc := ⟨.hbm, 73, rfl⟩
abbrev main_c_16 : Ref sig .tc := ⟨.hbm, 74, rfl⟩
abbrev main_v53 : Ref sig .tc := ⟨.hbm, 75, rfl⟩
abbrev main_cst_17 : Ref sig .tc := ⟨.hbm, 76, rfl⟩
abbrev main_v54 : Ref sig .tc := ⟨.hbm, 77, rfl⟩
abbrev main_v55 : Ref sig .tc := ⟨.hbm, 78, rfl⟩
abbrev main_c_18 : Ref sig .tc := ⟨.hbm, 79, rfl⟩
abbrev main_v56 : Ref sig .tc := ⟨.hbm, 80, rfl⟩
abbrev main_cst_19 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8194 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x8194 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S_S8198 : S_.BroadcastsInDim S8198 (![] : Fin 0 → Fin S8198.rank)
  bcast_S_S1 : S_.BroadcastsInDim S1 (![] : Fin 0 → Fin S1.rank)
  slices_S8198_S8194_2 : S8198.Slices ![2] S8194
  shapeCasts_S8192_S1x8192 : S8192.ShapeCasts S1x8192
  shapeCasts_S8194_S1x8194 : S8194.ShapeCasts S1x8194
  inb_S64x8192_S64x8192_0_0 : ∀ a, (![0, 0] : Fin 2 → Nat) a + S64x8192.size a ≤ S64x8192.size a
  h_S64x8192 : 0 < S64x8192.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S64x8192 : S1x8192.Broadcasts S64x8192
  inb_S64x8192_S64x8191_0_1 : ∀ a, (![0, 1] : Fin 2 → Nat) a + S64x8191.size a ≤ S64x8192.size a
  h_S64x8191 : 0 < S64x8191.numel
  inb_S1x8192_S1x8191_0_1 : ∀ a, (![0, 1] : Fin 2 → Nat) a + S1x8191.size a ≤ S1x8192.size a
  h_S1x8191 : 0 < S1x8191.numel
  shapeCasts_S1x8191_S1x8191 : S1x8191.ShapeCasts S1x8191
  broadcasts_S1x8191_S64x8191 : S1x8191.Broadcasts S64x8191
  inb_S64x8192_S64x8190_0_2 : ∀ a, (![0, 2] : Fin 2 → Nat) a + S64x8190.size a ≤ S64x8192.size a
  h_S64x8190 : 0 < S64x8190.numel
  inb_S1x8192_S1x8190_0_2 : ∀ a, (![0, 2] : Fin 2 → Nat) a + S1x8190.size a ≤ S1x8192.size a
  h_S1x8190 : 0 < S1x8190.numel
  shapeCasts_S1x8190_S1x8190 : S1x8190.ShapeCasts S1x8190
  broadcasts_S1x8190_S64x8190 : S1x8190.Broadcasts S64x8190
  concatenates_S64x8192_S64x2_S64x8194_d1 : Shape.Concatenates [S64x8192, S64x2] S64x8194 1
  concatenates_S64x8191_S64x3_S64x8194_d1 : Shape.Concatenates [S64x8191, S64x3] S64x8194 1
  concatenates_S64x8190_S64x4_S64x8194_d1 : Shape.Concatenates [S64x8190, S64x4] S64x8194 1
  inb_S1x8194_S1x8194_0_0 : ∀ a, (![0, 0] : Fin 2 → Nat) a + S1x8194.size a ≤ S1x8194.size a
  h_S1x8194 : 0 < S1x8194.numel
  shapeCasts_S1x8194_S1x8194 : S1x8194.ShapeCasts S1x8194
  broadcasts_S1x8194_S64x8194 : S1x8194.Broadcasts S64x8194
  inb_S64x8194_S64x8194_0_0 : ∀ a, (![0, 0] : Fin 2 → Nat) a + S64x8194.size a ≤ S64x8194.size a
  h_S64x8194 : 0 < S64x8194.numel
  gather_S8198x8192_S8192x2_S8192_n_01_n_n_01_1_11_wf : GatherDims.WF S8198x8192 S8192x2 S8192 [] [0, 1] [] [0, 1] [] 1 ![1, 1]
  scatter_S8198_S1_S8192_0_n_0_0_wf : ScatterDims.WF S8198 S1 S8192 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S4096x8192.size a
  hwx0_0 : ∀ i : grid0.Coords, EltTy.bits .f32 = 32 ∨ (Rect.block (s := S4096x8192) S64x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8194.size a ≤ S1x8194.size a
  hwx0_4 : ∀ i : grid0.Coords, EltTy.bits .f32 = 32 ∨ (Rect.block (s := S1x8194) S1x8194.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x8194.size a ≤ S4096x8194.size a
  hwx0_5 : ∀ i : grid0.Coords, EltTy.bits .f32 = 32 ∨ (Rect.block (s := S4096x8194) S64x8194.size (cc0_transform_5 i) (hinb0_5 i)).WholeWords (EltTy.packing .f32)

variable [Facts₀]

def gather_S8198x8192_S8192x2_S8192_n_01_n_n_01_1_11 : GatherDims S8198x8192 S8192x2 S8192 where
  offsetDims := []
  collapsedSliceDims := [0, 1]
  operandBatchingDims := []
  startIndicesBatchingDims := []
  startIndexMap := [0, 1]
  indexVectorDim := 1
  sliceSizes := ![1, 1]
  wf := gather_S8198x8192_S8192x2_S8192_n_01_n_n_01_1_11_wf
def scatter_S8198_S1_S8192_0_n_0_0 : ScatterDims S8198 S1 S8192 where
  updateWindowDims := [0]
  insertedWindowDims := []
  scatterDimsToOperandDims := [0]
  indexVectorDim := 0
  wf := scatter_S8198_S1_S8192_0_n_0_0_wf

abbrev win0_0 : Pipeline.Window sig grid0 :=
  Pipeline.Window.ofSpec (Memref.whole main_arg0) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v61) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v62) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v63) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v64) S1x8194.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v65) S64x8194.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S8198x8192 : Shape := ⟨2, ![8198, 8192]⟩
abbrev S8198 : Shape := ⟨1, ![8198]⟩
abbrev S8192 : Shape := ⟨1, ![8192]⟩
abbrev S_ : Shape := ⟨0, ![]⟩
abbrev S4096x8198 : Shape := ⟨2, ![4096, 8198]⟩
abbrev S8192x1 : Shape := ⟨2, ![8192, 1]⟩
abbrev S8192x2 : Shape := ⟨2, ![8192, 2]⟩
abbrev S1x8192 : Shape := ⟨2, ![1, 8192]⟩
abbrev S1 : Shape := ⟨1, ![1]⟩
abbrev S1x8198 : Shape := ⟨2, ![1, 8198]⟩
abbrev S4096x8194 : Shape := ⟨2, ![4096, 8194]⟩

abbrev nBuf : Space → Nat
  | .hbm => 109
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8198x8192, .f32⟩
  | .hbm, ⟨2, _⟩ => ⟨S8198, .f32⟩
  | .hbm, ⟨3, _⟩ => ⟨S8192, .i32⟩
  | .hbm, ⟨4, _⟩ => ⟨S_, .f32⟩
  | .hbm, ⟨5, _⟩ => ⟨S4096x8198, .f32⟩
  | .hbm, ⟨6, _⟩ => ⟨S_, .f32⟩
  | .hbm, ⟨7, _⟩ => ⟨S8198, .f32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x1, .i32⟩
  | .hbm, ⟨26, _⟩ => ⟨S8192x1, .i32⟩
  | .hbm, ⟨27, _⟩ => ⟨S8192x2, .i32⟩
  | .hbm, ⟨28, _⟩ => ⟨S8192, .f32⟩
  | .hbm, ⟨29, _⟩ => ⟨S1x8192, .f32⟩
  | .hbm, ⟨30, _⟩ => ⟨S4096x8192, .f32⟩
  | .hbm, ⟨31, _⟩ => ⟨S4096x8192, .f32⟩
  | .hbm, ⟨32, _⟩ => ⟨S_, .i32⟩
  | .hbm, ⟨33, _⟩ => ⟨S1, .i32⟩
  | .hbm, ⟨34, _⟩ => ⟨S4096x8198, .f32⟩
  | .hbm, ⟨35, _⟩ => ⟨S_, .i32⟩
  | .hbm, ⟨36, _⟩ => ⟨S1, .i32⟩
  | .hbm, ⟨37, _⟩ => ⟨S_, .f32⟩
  | .hbm, ⟨38, _⟩ => ⟨S8192, .f32⟩
  | .hbm, ⟨39, _⟩ => ⟨S8198, .f32⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S_, .i32⟩
  | .hbm, ⟨51, _⟩ => ⟨S8192, .i32⟩
  | .hbm, ⟨52, _⟩ => ⟨S8192, .i1⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S8192, .i32⟩
  | .hbm, ⟨57, _⟩ => ⟨S8192x1, .i32⟩
  | .hbm, ⟨58, _⟩ => ⟨S8192x1, .i32⟩
  | .hbm, ⟨59, _⟩ => ⟨S8192x2, .i32⟩
  | .hbm, ⟨60, _⟩ => ⟨S8192, .f32⟩
  | .hbm, ⟨61, _⟩ => ⟨S1x8192, .f32⟩
  | .hbm, ⟨62, _⟩ => ⟨S4096x8192, .f32⟩
  | .hbm, ⟨63, _⟩ => ⟨S4096x8192, .f32⟩
  | .hbm, ⟨64, _⟩ => ⟨S_, .i32⟩
  | .hbm, ⟨65, _⟩ => ⟨S1, .i32⟩
  | .hbm, ⟨66, _⟩ => ⟨S4096x8198, .f32⟩
  | .hbm, ⟨67, _⟩ => ⟨S_, .i32⟩
  | .hbm, ⟨68, _⟩ => ⟨S1, .i32⟩
  | .hbm, ⟨69, _⟩ => ⟨S_, .f32⟩
  | .hbm, ⟨70, _⟩ => ⟨S8192, .f32⟩
  | .hbm, ⟨71, _⟩ => ⟨S8198, .f32⟩
  | .hbm, ⟨72, _⟩ => ⟨S_, .i32⟩
  | .hbm, ⟨73, _⟩ => ⟨S8192, .i32⟩
  | .hbm, ⟨74, _⟩ => ⟨S8192, .i32⟩
  | .hbm, ⟨75, _⟩ => ⟨S_, .i32⟩
  | .hbm, ⟨76, _⟩ => ⟨S8192, .i32⟩
  | .hbm, ⟨77, _⟩ => ⟨S8192, .i1⟩
  | .hbm, ⟨78, _⟩ => ⟨S_, .i32⟩
  | .hbm, ⟨79, _⟩ => ⟨S8192, .i32⟩
  | .hbm, ⟨80, _⟩ => ⟨S8192, .i32⟩
  | .hbm, ⟨81, _⟩ => ⟨S8192, .i32⟩
  | .hbm, ⟨82, _⟩ => ⟨S_, .i32⟩
  | .hbm, ⟨83, _⟩ => ⟨S8192, .i32⟩
  | .hbm, ⟨84, _⟩ => ⟨S8192, .i1⟩
  | .hbm, ⟨85, _⟩ => ⟨S_, .i32⟩
  | .hbm, ⟨86, _⟩ => ⟨S8192, .i32⟩
  | .hbm, ⟨87, _⟩ => ⟨S8192, .i32⟩
  | .hbm, ⟨88, _⟩ => ⟨S8192, .i32⟩
  | .hbm, ⟨89, _⟩ => ⟨S8192x1, .i32⟩
  | .hbm, ⟨90, _⟩ => ⟨S8192x1, .i32⟩
  | .hbm, ⟨91, _⟩ => ⟨S8192x2, .i32⟩
  | .hbm, ⟨92, _⟩ => ⟨S8192, .f32⟩
  | .hbm, ⟨93, _⟩ => ⟨S1x8192, .f32⟩
  | .hbm, ⟨94, _⟩ => ⟨S4096x8192, .f32⟩
  | .hbm, ⟨95, _⟩ => ⟨S4096x8192, .f32⟩
  | .hbm, ⟨96, _⟩ => ⟨S_, .i32⟩
  | .hbm, ⟨97, _⟩ => ⟨S1, .i32⟩
  | .hbm, ⟨98, _⟩ => ⟨S4096x8198, .f32⟩
  | .hbm, ⟨99, _⟩ => ⟨S_, .i32⟩
  | .hbm, ⟨100, _⟩ => ⟨S1, .i32⟩
  | .hbm, ⟨101, _⟩ => ⟨S_, .f32⟩
  | .hbm, ⟨102, _⟩ => ⟨S8192, .f32⟩
  | .hbm, ⟨103, _⟩ => ⟨S8198, .f32⟩
  | .hbm, ⟨104, _⟩ => ⟨S8198, .f32⟩
  | .hbm, ⟨105, _⟩ => ⟨S1x8198, .f32⟩
  | .hbm, ⟨106, _⟩ => ⟨S4096x8198, .f32⟩
  | .hbm, ⟨107, _⟩ => ⟨S4096x8198, .f32⟩
  | .hbm, ⟨108, _⟩ => ⟨S4096x8194, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_c_8 : Ref sig .tc := ⟨.hbm, 40, rfl⟩
abbrev main_v27 : Ref sig .tc := ⟨.hbm, 41, rfl⟩
abbrev main_v28 : Ref sig .tc := ⟨.hbm, 42, rfl⟩
abbrev main_c_9 : Ref sig .tc := ⟨.hbm, 43, rfl⟩
abbrev main_v29 : Ref sig .tc := ⟨.hbm, 44, rfl⟩
abbrev main_v30 : Ref sig .tc := ⟨.hbm, 45, rfl⟩
abbrev main_c_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_11 : Ref sig .tc := ⟨.hbm, 50, rfl⟩
abbrev main_v34 : Ref sig .tc := ⟨.hbm, 51, rfl⟩
abbrev main_v35 : Ref sig .tc := ⟨.hbm, 52, rfl⟩
abbrev main_c_12 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_13 : Ref sig .tc := ⟨.hbm, 64, rfl⟩
abbrev main_v46 : Ref sig .tc := ⟨.hbm, 65, rfl⟩
abbrev main_v47 : Ref sig .tc := ⟨.hbm, 66, rfl⟩
abbrev main_c_14 : Ref sig .tc := ⟨.hbm, 67, rfl⟩
abbrev main_v48 : Ref sig .tc := ⟨.hbm, 68, rfl⟩
abbrev main_cst_15 : Ref sig .tc := ⟨.hbm, 69, rfl⟩
abbrev main_v49 : Ref sig .tc := ⟨.hbm, 70, rfl⟩
abbrev main_v50 : Ref sig .tc := ⟨.hbm, 71, rfl⟩
abbrev main_c_16 : Ref sig .tc := ⟨.hbm, 72, rfl⟩
abbrev main_v51 : Ref sig .tc := ⟨.hbm, 73, rfl⟩
abbrev main_v52 : Ref sig .tc := ⟨.hbm, 74, rfl⟩
abbrev main_c_17 : Ref sig .tc := ⟨.hbm, 75, rfl⟩
abbrev main_v53 : Ref sig .tc := ⟨.hbm, 76, rfl⟩
abbrev main_v54 : Ref sig .tc := ⟨.hbm, 77, rfl⟩
abbrev main_c_18 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_19 : Ref sig .tc := ⟨.hbm, 82, rfl⟩
abbrev main_v58 : Ref sig .tc := ⟨.hbm, 83, rfl⟩
abbrev main_v59 : Ref sig .tc := ⟨.hbm, 84, rfl⟩
abbrev main_c_20 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_21 : Ref sig .tc := ⟨.hbm, 96, rfl⟩
abbrev main_v70 : Ref sig .tc := ⟨.hbm, 97, rfl⟩
abbrev main_v71 : Ref sig .tc := ⟨.hbm, 98, rfl⟩
abbrev main_c_22 : Ref sig .tc := ⟨.hbm, 99, rfl⟩
abbrev main_v72 : Ref sig .tc := ⟨.hbm, 100, rfl⟩
abbrev main_cst_23 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]

class Facts₀ : Prop where
  bcast_S_S4096x8198 : S_.BroadcastsInDim S4096x8198 (![] : Fin 0 → Fin S4096x8198.rank)
  bcast_S_S8198 : S_.BroadcastsInDim S8198 (![] : Fin 0 → Fin S8198.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S_S1 : S_.BroadcastsInDim S1 (![] : Fin 0 → Fin S1.rank)
  bcast_S8198_S1x8198_1 : S8198.BroadcastsInDim S1x8198 (![1] : Fin 1 → Fin S1x8198.rank)
  bcast_S1x8198_S4096x8198_0_1 : S1x8198.BroadcastsInDim S4096x8198 (![0, 1] : Fin 2 → Fin S4096x8198.rank)
  slices_S4096x8198_S4096x8194_0_2 : S4096x8198.Slices ![0, 2] S4096x8194
  gather_S8198x8192_S8192x2_S8192_n_01_n_n_01_1_11_wf : GatherDims.WF S8198x8192 S8192x2 S8192 [] [0, 1] [] [0, 1] [] 1 ![1, 1]
  scatter_S4096x8198_S1_S4096x8192_01_n_1_0_wf : ScatterDims.WF S4096x8198 S1 S4096x8192 [0, 1] [] [1] 0
  scatter_S8198_S1_S8192_0_n_0_0_wf : ScatterDims.WF S8198 S1 S8192 [0] [] [0] 0

variable [Facts₀]

def gather_S8198x8192_S8192x2_S8192_n_01_n_n_01_1_11 : GatherDims S8198x8192 S8192x2 S8192 where
  offsetDims := []
  collapsedSliceDims := [0, 1]
  operandBatchingDims := []
  startIndicesBatchingDims := []
  startIndexMap := [0, 1]
  indexVectorDim := 1
  sliceSizes := ![1, 1]
  wf := gather_S8198x8192_S8192x2_S8192_n_01_n_n_01_1_11_wf
def scatter_S4096x8198_S1_S4096x8192_01_n_1_0 : ScatterDims S4096x8198 S1 S4096x8192 where
  updateWindowDims := [0, 1]
  insertedWindowDims := []
  scatterDimsToOperandDims := [1]
  indexVectorDim := 0
  wf := scatter_S4096x8198_S1_S4096x8192_01_n_1_0_wf
def scatter_S8198_S1_S8192_0_n_0_0 : ScatterDims S8198 S1 S8192 where
  updateWindowDims := [0]
  insertedWindowDims := []
  scatterDimsToOperandDims := [0]
  indexVectorDim := 0
  wf := scatter_S8198_S1_S8192_0_n_0_0_wf

class Facts : Prop extends Facts₀ where

variable [Facts]
-- ==== Proof.KernelPayload.lean ====
/-
  The kernel body's stored value at one entry of a 64-row output block.

  The body forms three products of a slice of the input block with a slice of a band diagonal repeated down
  the rows — full width, width 8191 from column 1, width 8190 from column 2 —, pads each on the right with
  zeros to width 8194, adds the three and then the bias row repeated down the rows. At row p and column q the
  padded product of width n is the product at (p, q) when q < n and 0 beyond, so the entry is

      [q < 8192] a(p,q)·u(q) + [q < 8191] b(p,q)·v(q) + [q < 8190] c(p,q)·w(q) + bias(q).
-/
import proofs.«131223_j60662118089240_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- Two arrays of 64 rows set side by side, read at an entry: the left one where the column is inside it,
    else the right one at the column less the left width. -/
theorem sideBySide_apply {α : Type} {n k t : ℕ} (hnk : n + k = t)
    (A : (⟨2, ![64, n]⟩ : Shape).Idx → α) (Z : (⟨2, ![64, k]⟩ : Shape).Idx → α)
    (h : Shape.Concatenates [(⟨2, ![64, n]⟩ : Shape), ⟨2, ![64, k]⟩] ⟨2, ![64, t]⟩ (1 : Fin 2)) (p : Fin 64) (q : Fin t) :
    concatenate (⟨2, ![64, t]⟩ : Shape) (1 : Fin 2) [⟨(⟨2, ![64, n]⟩ : Shape), A⟩, ⟨(⟨2, ![64, k]⟩ : Shape), Z⟩] h (ix2 p q)
      = if hq : q.val < n then A (ix2 p ⟨q.val, hq⟩) else Z (ix2 p ⟨q.val - n, by have := q.isLt; omega⟩) := by
  split
  · rename_i hq
    exact concatenate_pair_apply_left (1 : Fin 2) A Z h (ix2 p q) rfl (ix2 p ⟨q.val, hq⟩)
      (fun b => match b with | ⟨0, _⟩ => rfl | ⟨1, _⟩ => rfl)
  · rename_i hq
    exact concatenate_pair_apply_right (1 : Fin 2) A Z h (ix2 p q) rfl rfl (ix2 p ⟨q.val - n, by have := q.isLt; omega⟩)
      (fun b hb => match b with | ⟨0, _⟩ => rfl | ⟨1, _⟩ => absurd rfl hb)
      (by show (q.val - n) + n = q.val; omega)

/-- The integer 0 converted to a float is the real number 0. -/
theorem zero_word : Scalar.sitofp (F := Ideal) .f32 (0#32 : BitVec 32) = (0 : EReal) := by
  rw [Ideal.scalar_sitofp_def]; simp

/-- A one-row array repeated down 64 rows, read at an entry. -/
theorem rows_apply {n : ℕ} (u : (⟨2, ![1, n]⟩ : Shape).Idx → EReal)
    (h : (⟨2, ![1, n]⟩ : Shape).Broadcasts ⟨2, ![64, n]⟩) (p : Fin 64) (q : Fin n) :
    broadcastTo (⟨2, ![64, n]⟩ : Shape) u h (ix2 p q) = u (ix2 0 q) :=
  broadcastTo_apply u h (ix2 p q) (ix2 0 q) (fun a => match a with
    | ⟨0, _⟩ => by show (0 : ℕ) = if (1 : ℕ) = 1 then 0 else _; rw [if_pos rfl]
    | ⟨1, _⟩ => by
        show q.val = if n = 1 then 0 else q.val
        split
        · rename_i h1; have := q.isLt; omega
        · rfl)

/-- The stored value at row `p`, column `q` of the block. -/
theorem pay_apply (v0 : Vec Ideal S64x8192 .f32) (v1 : Vec Ideal S1x8192 .f32) (v5 : Vec Ideal S64x8191 .f32)
    (v6 : Vec Ideal S1x8191 .f32) (v10 : Vec Ideal S64x8190 .f32) (v11 : Vec Ideal S1x8190 .f32)
    (v26 : Vec Ideal S1x8194 .f32) (p : Fin 64) (q : Fin 8194) :
    k0_pay1 v0 v1 v5 v6 v10 v11 v26 (ix2 p q)
      = (if h : q.val < 8192 then v0 (ix2 p ⟨q.val, h⟩) * v1 (ix2 0 ⟨q.val, h⟩) else 0)
        + (if h : q.val < 8191 then v5 (ix2 p ⟨q.val, h⟩) * v6 (ix2 0 ⟨q.val, h⟩) else 0)
        + (if h : q.val < 8190 then v10 (ix2 p ⟨q.val, h⟩) * v11 (ix2 0 ⟨q.val, h⟩) else 0)
        + v26 (ix2 0 q) := by
  unfold k0_pay1
  simp only [addf_apply]
  rw [sideBySide_apply (by norm_num : 8192 + 2 = 8194), sideBySide_apply (by norm_num : 8191 + 3 = 8194),
    sideBySide_apply (by norm_num : 8190 + 4 = 8194)]
  simp only [mulf_apply, broadcast_apply, zero_word, shapeCast_self, rows_apply]

end Cert.KernelIdeal.Payload

end
-- ==== Proof.KernelHost.lean ====
/-
  What the kernel's host-side preparation leaves in the four small operands of the banded multiply-add:
  the three band diagonals of the weight matrix (row n + k, column n of the weight, for k = 0, 1, 2, read by an
  element gather whose start indices are built from an iota) laid out as one row each, and the row of
  bias entries times the number of bands touching each column, columns 2 … 8195 of the full-width vector.
  Each is stated as one function of the argument arrays; none of them is evaluated here.
-/
import proofs.«131223_j60662118089240_1_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- The word `d` in every entry of a length-8192 integer vector. -/
def splat (d : BitVec 32) : (⟨S8192, .i32⟩ : BufTy).Contents (Elt F) :=
  broadcastInDim S8192 ![] bcast_S_S8192 (constantI S_ 32 d : (⟨S_, .i32⟩ : BufTy).Contents (Elt F))

/-- Index normalisation: an entry below zero has the extent `n` added. -/
def wrap (v : (⟨S8192, .i32⟩ : BufTy).Contents (Elt F)) (n : BitVec 32) : (⟨S8192, .i32⟩ : BufTy).Contents (Elt F) :=
  select (cmpi .slt v (splat (F := F) 0#32) : (⟨S8192, .i1⟩ : BufTy).Contents (Elt F)) (addi v (splat (F := F) n)) v

/-- The start indices of band `d`: entry `n` is the pair (row `n + d`, column `n`). -/
def diagIdx (d : BitVec 32) : (⟨S8192x2, .i32⟩ : BufTy).Contents (Elt F) :=
  concatenate S8192x2 1
    [⟨S8192x1, (broadcastInDim S8192x1 ![0] bcast_S8192_S8192x1_0
        (wrap (F := F) (addi (iotaInDim S8192 32 0 : (⟨S8192, .i32⟩ : BufTy).Contents (Elt F)) (splat (F := F) d)) 8198#32) : (⟨S8192x1, .i32⟩ : BufTy).Contents (Elt F))⟩,
     ⟨S8192x1, (broadcastInDim S8192x1 ![0] bcast_S8192_S8192x1_0
        (wrap (F := F) (iotaInDim S8192 32 0 : (⟨S8192, .i32⟩ : BufTy).Contents (Elt F)) 8192#32) : (⟨S8192x1, .i32⟩ : BufTy).Contents (Elt F))⟩]
    concatenates_S8192x1_S8192x1_S8192x2_d1

/-- Band diagonal `d` of the weight matrix: entry `n` is the weight at the `n`-th start index. -/
def diag (d : BitVec 32) (w : (⟨S8198x8192, .f32⟩ : BufTy).Contents (Elt F)) : (⟨S8192, .f32⟩ : BufTy).Contents (Elt F) :=
  Host.gather gather_S8198x8192_S8192x2_S8192_n_01_n_n_01_1_11 w (diagIdx (F := F) d)

/-- One more band counted on the 8192 columns from column `d` on. -/
def bump (acc : (⟨S8198, .f32⟩ : BufTy).Contents (Elt F)) (d : BitVec 32) : (⟨S8198, .f32⟩ : BufTy).Contents (Elt F) :=
  Host.scatter scatter_S8198_S1_S8192_0_n_0_0 FloatOps.addf acc
    (broadcastInDim S1 ![] bcast_S_S1 (constantI S_ 32 d : (⟨S_, .i32⟩ : BufTy).Contents (Elt F)) : (⟨S1, .i32⟩ : BufTy).Contents (Elt F))
    (broadcastInDim S8192 ![] bcast_S_S8192 (constant S_ .f32 0x3F800000#32 : (⟨S_, .f32⟩ : BufTy).Contents (Elt F)) : (⟨S8192, .f32⟩ : BufTy).Contents (Elt F))

/-- How many bands touch each of the 8198 columns. -/
def count : (⟨S8198, .f32⟩ : BufTy).Contents (Elt F) :=
  bump (F := F) (bump (F := F) (bump (F := F)
    (broadcastInDim S8198 ![] bcast_S_S8198 (constant S_ .f32 0x00000000#32 : (⟨S_, .f32⟩ : BufTy).Contents (Elt F))) 0#32) 1#32) 2#32

/-- The bias times the band count. -/
def biasCount (b : (⟨S8198, .f32⟩ : BufTy).Contents (Elt F)) : (⟨S8198, .f32⟩ : BufTy).Contents (Elt F) :=
  mulf b (count (F := F))

variable (m : (ℓ : Loc nD τ sig) → Buf (Elt F) ℓ)

set_option maxHeartbeats 4000000 in
/-- The region finds band diagonal 0 as a one-row array. -/
theorem V_main_v61 (c : Dev nD) :
    (V m c main_v61 : S1x8192.Idx → Elt F .f32)
      = shapeCast S1x8192 (diag (F := F) 0#32 (m ((c : Thread nD τ).loc main_arg1))) shapeCasts_S8192_S1x8192 := by
  dsimp only [V, hostOps0]
  after_results_simp
  rfl

set_option maxHeartbeats 4000000 in
/-- The region finds band diagonal 1 as a one-row array. -/
theorem V_main_v62 (c : Dev nD) :
    (V m c main_v62 : S1x8192.Idx → Elt F .f32)
      = shapeCast S1x8192 (diag (F := F) 1#32 (m ((c : Thread nD τ).loc main_arg1))) shapeCasts_S8192_S1x8192 := by
  dsimp only [V, hostOps0]
  after_results_simp
  rfl

set_option maxHeartbeats 4000000 in
/-- The region finds band diagonal 2 as a one-row array. -/
theorem V_main_v63 (c : Dev nD) :
    (V m c main_v63 : S1x8192.Idx → Elt F .f32)
      = shapeCast S1x8192 (diag (F := F) 2#32 (m ((c : Thread nD τ).loc main_arg1))) shapeCasts_S8192_S1x8192 := by
  dsimp only [V, hostOps0]
  after_results_simp
  rfl

set_option maxHeartbeats 4000000 in
/-- The region finds columns 2 … 8195 of the bias times the band count as a one-row array. -/
theorem V_main_v64 (c : Dev nD) :
    (V m c main_v64 : S1x8194.Idx → Elt F .f32)
      = shapeCast S1x8194 (extractStridedSlice S8194 ![2] (biasCount (F := F) (m ((c : Thread nD τ).loc main_arg2))) slices_S8198_S8194_2)
          shapeCasts_S8194_S1x8194 := by
  dsimp only [V, hostOps0]
  after_results_simp
  rfl

end Cert.KernelIdeal.HostSide

end
-- ==== Proof.Band.lean ====
/-
  The banded multiply-add, as one function of its arguments.

  For a row r and an output column q (0 ≤ q < 8194) the result is

      x[r, q] · d2[q]  +  x[r, q+1] · d1[q+1]  +  x[r, q+2] · d0[q+2]  +  b[q+2]

  where a product whose input column q + k falls outside [0, 8192) contributes nothing. Here d_k is
  the k-th band diagonal of the weight matrix (d_k[n] = weight[n + k, n]) and b the bias times the
  number of bands that touch each column; both are left abstract: the statement holds for any vectors.
  Both programs compute this function; they differ in how the three shifted products are laid onto the
  output row and in the order of the additions. Addition of extended reals is commutative and
  associative and 0 is neutral, so no finiteness is needed.
-/
import Idealize.ShloMosaic.Lib.ValueIdx
import Idealize.ShloMosaic.PureOps.Ideal

noncomputable section

namespace Cert.Band

open Idealize.ShloMosaic Idealize.ShloMosaic.ValueIdx

/-- The input rows. -/
abbrev SX : Shape := ⟨2, ![4096, 8192]⟩
/-- One band diagonal. -/
abbrev SD : Shape := ⟨1, ![8192]⟩
/-- The bias vector (times the band count). -/
abbrev SB : Shape := ⟨1, ![8198]⟩
/-- The output rows. -/
abbrev SO : Shape := ⟨2, ![4096, 8194]⟩

/-- The contribution of the band at shift `k` to column `q` of row `r`: input column `q + k` times the
    diagonal's entry there when that column exists, nothing otherwise. -/
def tap (x : SX.Idx → EReal) (d : SD.Idx → EReal) (k : ℕ) (r : Fin 4096) (q : ℕ) : EReal :=
  if h : q + k < 8192 then x (ix2 r ⟨q + k, h⟩) * d (ix1 ⟨q + k, h⟩) else 0

theorem tap_of_lt (x : SX.Idx → EReal) (d : SD.Idx → EReal) (k : ℕ) (r : Fin 4096) (q : ℕ) (h : q + k < 8192) :
    tap x d k r q = x (ix2 r ⟨q + k, h⟩) * d (ix1 ⟨q + k, h⟩) := by
  unfold tap; rw [dif_pos h]

theorem tap_of_not_lt (x : SX.Idx → EReal) (d : SD.Idx → EReal) (k : ℕ) (r : Fin 4096) (q : ℕ) (h : ¬ q + k < 8192) :
    tap x d k r q = 0 := by
  unfold tap; rw [dif_neg h]

/-- The bias entry under output column `q`: column `q + 2` of the full-width vector. -/
def shifted (b : SB.Idx → EReal) (q : Fin 8194) : EReal := b (ix1 ⟨q.val + 2, by have := q.isLt; omega⟩)

/-- The banded multiply-add at an output index. -/
def band (x : SX.Idx → EReal) (d0 d1 d2 : SD.Idx → EReal) (b : SB.Idx → EReal) : SO.Idx → EReal := fun i =>
  tap x d2 0 (i 0) (i 1).val + tap x d1 1 (i 0) (i 1).val + tap x d0 2 (i 0) (i 1).val + shifted b (i 1)

theorem band_apply (x : SX.Idx → EReal) (d0 d1 d2 : SD.Idx → EReal) (b : SB.Idx → EReal) (r : Fin 4096) (q : Fin 8194) :
    band x d0 d1 d2 b (ix2 r q)
      = tap x d2 0 r q.val + tap x d1 1 r q.val + tap x d0 2 r q.val + shifted b q := rfl

end Cert.Band

end
-- ==== Proof.KernelValue.lean ====
/-
  The kernel's output array as one function of the argument arrays.

  The grid has 64 points; point t computes rows 64 t … 64 t + 63 of the output from the same rows of the input
  and from the three band diagonals and the bias row, which every point sees whole. Inside the block, the
  three products read the input block at column offsets 0, 1 and 2, so entry (p, q) of point t's block is the
  banded multiply-add of the whole arrays at (64 t + p, q). The 64 blocks tile the 4096 rows, hence the
  array after the run is the banded multiply-add everywhere.
-/
import proofs.«131223_j60662118089240_1_alg».proof.Proof.Gen.KernelIdeal.Value
import proofs.«131223_j60662118089240_1_alg».proof.Proof.KernelPayload
import proofs.«131223_j60662118089240_1_alg».proof.Proof.KernelHost
import proofs.«131223_j60662118089240_1_alg».proof.Proof.Band

set_option maxRecDepth 16384

noncomputable section

namespace Cert.KernelIdeal.BandValue

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-! ## The body's loads at an entry -/

/-- The input block read from column 1 on. -/
theorem ld_from1 (X0 : Vec Ideal S64x8192 .f32) (p : Fin 64) (q : Fin 8191) :
    View.ld X0 r0_2 (ix2 p q) = X0 (ix2 p ⟨q.val + 1, by have := q.isLt; omega⟩) :=
  congrArg X0 (funext fun a => Fin.ext (match a with
    | ⟨0, _⟩ => by show 0 + 1 * p.val = p.val; omega
    | ⟨1, _⟩ => by show 1 + 1 * q.val = q.val + 1; omega))

/-- The input block read from column 2 on. -/
theorem ld_from2 (X0 : Vec Ideal S64x8192 .f32) (p : Fin 64) (q : Fin 8190) :
    View.ld X0 r0_4 (ix2 p q) = X0 (ix2 p ⟨q.val + 2, by have := q.isLt; omega⟩) :=
  congrArg X0 (funext fun a => Fin.ext (match a with
    | ⟨0, _⟩ => by show 0 + 1 * p.val = p.val; omega
    | ⟨1, _⟩ => by show 2 + 1 * q.val = q.val + 2; omega))

/-- A diagonal's row read from column 1 on. -/
theorem ldrow_from1 (X : Vec Ideal S1x8192 .f32) (q : Fin 8191) :
    View.ld X r0_3 (ix2 (0 : Fin 1) q) = X (ix2 (0 : Fin 1) ⟨q.val + 1, by have := q.isLt; omega⟩) :=
  congrArg X (funext fun a => Fin.ext (match a with
    | ⟨0, _⟩ => by show 0 + 1 * 0 = 0; omega
    | ⟨1, _⟩ => by show 1 + 1 * q.val = q.val + 1; omega))

/-- A diagonal's row read from column 2 on. -/
theorem ldrow_from2 (X : Vec Ideal S1x8192 .f32) (q : Fin 8190) :
    View.ld X r0_5 (ix2 (0 : Fin 1) q) = X (ix2 (0 : Fin 1) ⟨q.val + 2, by have := q.isLt; omega⟩) :=
  congrArg X (funext fun a => Fin.ext (match a with
    | ⟨0, _⟩ => by show 0 + 1 * 0 = 0; omega
    | ⟨1, _⟩ => by show 2 + 1 * q.val = q.val + 2; omega))

/-! ## One block entry is the banded multiply-add of the whole arrays -/

/-- If the input block holds rows `64 r0 …` of `x` and the small operands hold the diagonals and the shifted bias
    row, the value the body stores at `(p, q)` is the banded multiply-add at `(64 r0 + p, q)`. -/
theorem block_entry (x : Cert.Band.SX.Idx → EReal) (d0 d1 d2 : Cert.Band.SD.Idx → EReal) (b : Cert.Band.SB.Idx → EReal)
    (X0 : Vec Ideal S64x8192 .f32) (X1 X2 X3 : Vec Ideal S1x8192 .f32) (X4 : Vec Ideal S1x8194 .f32)
    (r0 : ℕ) (hr : r0 * 64 + 64 ≤ 4096)
    (h0 : ∀ (p : Fin 64) (q' : Fin 8192), X0 (ix2 p q') = x (ix2 ⟨r0 * 64 + p.val, by have := p.isLt; omega⟩ q'))
    (h1 : ∀ q' : Fin 8192, X1 (ix2 (0 : Fin 1) q') = d0 (ix1 q'))
    (h2 : ∀ q' : Fin 8192, X2 (ix2 (0 : Fin 1) q') = d1 (ix1 q'))
    (h3 : ∀ q' : Fin 8192, X3 (ix2 (0 : Fin 1) q') = d2 (ix1 q'))
    (h4 : ∀ q : Fin 8194, X4 (ix2 (0 : Fin 1) q) = Cert.Band.shifted b q)
    (p : Fin 64) (q : Fin 8194) :
    out0_5 X0 X1 X2 X3 X4 (ix2 p q)
      = Cert.Band.band x d0 d1 d2 b (ix2 ⟨r0 * 64 + p.val, by have := p.isLt; omega⟩ q) := by
  unfold out0_5
  rw [View.canon_unit_zero hz]
  simp only [View.ld_unit_zero (S := S64x8192) hz, View.ld_unit_zero (S := S1x8192) hz, View.ld_unit_zero (S := S1x8194) hz]
  rw [Cert.KernelIdeal.Payload.pay_apply, Cert.Band.band_apply]
  congr 1
  · congr 1
    · congr 1
      · by_cases h : q.val < 8192
        · rw [dif_pos h, Cert.Band.tap_of_lt x d2 0 _ q.val (by omega), h0, h3]
          rfl
        · rw [dif_neg h, Cert.Band.tap_of_not_lt x d2 0 _ q.val (by omega)]
      · by_cases h : q.val < 8191
        · rw [dif_pos h, Cert.Band.tap_of_lt x d1 1 _ q.val (by omega), ld_from1 X0 p ⟨q.val, h⟩, ldrow_from1 X2 ⟨q.val, h⟩, h0, h2]
        · rw [dif_neg h, Cert.Band.tap_of_not_lt x d1 1 _ q.val (by omega)]
    · by_cases h : q.val < 8190
      · rw [dif_pos h, Cert.Band.tap_of_lt x d0 2 _ q.val (by omega), ld_from2 X0 p ⟨q.val, h⟩, ldrow_from2 X1 ⟨q.val, h⟩, h0, h1]
      · rw [dif_neg h, Cert.Band.tap_of_not_lt x d0 2 _ q.val (by omega)]
  · exact h4 q

/-! ## The small operands as the region finds them -/

/-- A vector laid out as one row, read at an entry of the row. -/
theorem row_of_vec {α : Type} {n : ℕ} (v : (⟨1, ![n]⟩ : Shape).Idx → α)
    (h : (⟨1, ![n]⟩ : Shape).ShapeCasts ⟨2, ![1, n]⟩) (q : Fin n) :
    shapeCast (⟨2, ![1, n]⟩ : Shape) v h (ix2 (0 : Fin 1) q) = v (ix1 q) :=
  shapeCast_apply v h (ix2 (0 : Fin 1) q) (ix1 q) (by
    rw [Shape.rowMajor_val_one, Shape.rowMajor_val_two]
    show q.val = 0 * n + q.val
    omega)

variable (m : (ℓ : Loc nD τ sig) → Buf (Elt Ideal) ℓ) (ρ : Dev nD → PrngReg)

/-- The printed index maps over the 64 grid points: the input's and the output's block is row block `t`, the four
    small operands are taken whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole output array: the banded multiply-add of the input, the three band diagonals of the weight
    and the bias times the band count. -/
def G (c : Dev nD) : S4096x8194.Idx → EReal :=
  Cert.Band.band (m ((c : Thread nD τ).loc main_arg0))
    (HostSide.diag (F := Ideal) 0#32 (m ((c : Thread nD τ).loc main_arg1)))
    (HostSide.diag (F := Ideal) 1#32 (m ((c : Thread nD τ).loc main_arg1)))
    (HostSide.diag (F := Ideal) 2#32 (m ((c : Thread nD τ).loc main_arg1)))
    (HostSide.biasCount (F := Ideal) (m ((c : Thread nD τ).loc main_arg2)))

/-- Point `t`'s input block holds rows `64 t …` of the input. -/
theorem in_block (c : Dev nD) (t : Fin cfg0.N) (p : Fin 64) (q' : Fin 8192) :
    iblk m c 0 t (ix2 p q')
      = m ((c : Thread nD τ).loc main_arg0) (ix2 ⟨t.val * 64 + p.val, by have := t.isLt; have := p.isLt; have hN : cfg0.N = 64 := rfl; omega⟩ q') := by
  obtain ⟨e00, e01, -⟩ := idx_facts t
  show V m c main_arg0 (((cfg0.win 0).blk t).view.emb (ix2 p q')) = _
  rw [V_main_arg0]
  refine congrArg _ (funext fun a => Fin.ext ?_)
  match a with
  | ⟨0, _⟩ => show win0_0.index t (0 : Fin 2) * 64 + 1 * p.val = t.val * 64 + p.val; omega
  | ⟨1, _⟩ => show win0_0.index t (1 : Fin 2) * 8192 + 1 * q'.val = q'.val; omega

/-- Every point sees band diagonal 0 whole. -/
theorem d0_block (c : Dev nD) (t : Fin cfg0.N) (q' : Fin 8192) :
    iblk m c 1 t (ix2 (0 : Fin 1) q') = HostSide.diag (F := Ideal) 0#32 (m ((c : Thread nD τ).loc main_arg1)) (ix1 q') := by
  obtain ⟨-, -, e10, e11, -⟩ := idx_facts t
  show V m c main_v61 (((cfg0.win 1).blk t).view.emb (ix2 (0 : Fin 1) q')) = _
  have e : ((cfg0.win 1).blk t).view.emb (ix2 (0 : Fin 1) q') = ix2 (0 : Fin 1) q' := by
    refine funext fun a => Fin.ext ?_
    match a with
    | ⟨0, _⟩ => show win0_1.index t (0 : Fin 2) * 1 + 1 * 0 = 0; omega
    | ⟨1, _⟩ => show win0_1.index t (1 : Fin 2) * 8192 + 1 * q'.val = q'.val; omega
  rw [e, HostSide.V_main_v61]
  exact row_of_vec _ _ q'

/-- Every point sees band diagonal 1 whole. -/
theorem d1_block (c : Dev nD) (t : Fin cfg0.N) (q' : Fin 8192) :
    iblk m c 2 t (ix2 (0 : Fin 1) q') = HostSide.diag (F := Ideal) 1#32 (m ((c : Thread nD τ).loc main_arg1)) (ix1 q') := by
  obtain ⟨-, -, -, -, e20, e21, -⟩ := idx_facts t
  show V m c main_v62 (((cfg0.win 2).blk t).view.emb (ix2 (0 : Fin 1) q')) = _
  have e : ((cfg0.win 2).blk t).view.emb (ix2 (0 : Fin 1) q') = ix2 (0 : Fin 1) q' := by
    refine funext fun a => Fin.ext ?_
    match a with
    | ⟨0, _⟩ => show win0_2.index t (0 : Fin 2) * 1 + 1 * 0 = 0; omega
    | ⟨1, _⟩ => show win0_2.index t (1 : Fin 2) * 8192 + 1 * q'.val = q'.val; omega
  rw [e, HostSide.V_main_v62]
  exact row_of_vec _ _ q'

/-- Every point sees band diagonal 2 whole. -/
theorem d2_block (c : Dev nD) (t : Fin cfg0.N) (q' : Fin 8192) :
    iblk m c 3 t (ix2 (0 : Fin 1) q') = HostSide.diag (F := Ideal) 2#32 (m ((c : Thread nD τ).loc main_arg1)) (ix1 q') := by
  obtain ⟨-, -, -, -, -, -, e30, e31, -⟩ := idx_facts t
  show V m c main_v63 (((cfg0.win 3).blk t).view.emb (ix2 (0 : Fin 1) q')) = _
  have e : ((cfg0.win 3).blk t).view.emb (ix2 (0 : Fin 1) q') = ix2 (0 : Fin 1) q' := by
    refine funext fun a => Fin.ext ?_
    match a with
    | ⟨0, _⟩ => show win0_3.index t (0 : Fin 2) * 1 + 1 * 0 = 0; omega
    | ⟨1, _⟩ => show win0_3.index t (1 : Fin 2) * 8192 + 1 * q'.val = q'.val; omega
  rw [e, HostSide.V_main_v63]
  exact row_of_vec _ _ q'

/-- Every point sees the bias row whole: entry `q` is column `q + 2` of the bias times the band count. -/
theorem bias_block (c : Dev nD) (t : Fin cfg0.N) (q : Fin 8194) :
    iblk m c 4 t (ix2 (0 : Fin 1) q)
      = Cert.Band.shifted (HostSide.biasCount (F := Ideal) (m ((c : Thread nD τ).loc main_arg2))) q := by
  obtain ⟨-, -, -, -, -, -, -, -, e40, e41, -⟩ := idx_facts t
  show V m c main_v64 (((cfg0.win 4).blk t).view.emb (ix2 (0 : Fin 1) q)) = _
  have e : ((cfg0.win 4).blk t).view.emb (ix2 (0 : Fin 1) q) = ix2 (0 : Fin 1) q := by
    refine funext fun a => Fin.ext ?_
    match a with
    | ⟨0, _⟩ => show win0_4.index t (0 : Fin 2) * 1 + 1 * 0 = 0; omega
    | ⟨1, _⟩ => show win0_4.index t (1 : Fin 2) * 8194 + 1 * q.val = q.val; omega
  rw [e, HostSide.V_main_v64]
  refine (row_of_vec _ _ q).trans ?_
  exact extractStridedSlice_apply ![2] _ _ (ix1 q) (ix1 ⟨q.val + 2, by have := q.isLt; omega⟩)
    (fun a => match a with | ⟨0, _⟩ => by show q.val + 2 = 2 + q.val; omega)

/-! ## From the blocks to the array -/

/-- What point `t` writes back is block `t` of the banded multiply-add. -/
theorem flushed_eq (c : Dev nD) (t : Fin cfg0.N) :
    (dats m 0 c).flushed 5 t = ((cfg0.win 5).blk t).view.read (Elt Ideal) (G m c) := by
  rw [Value.flushed5]
  obtain ⟨-, -, -, -, -, -, -, -, -, -, e50, e51⟩ := idx_facts t
  have hN : cfg0.N = 64 := rfl
  have ht := t.isLt
  funext j
  show out0_5 (iblk m c 0 t) (iblk m c 1 t) (iblk m c 2 t) (iblk m c 3 t) (iblk m c 4 t) j
      = G m c (((cfg0.win 5).blk t).view.emb j)
  have hj0 : (j 0).val < 64 := (j 0).isLt
  have hj1 : (j 1).val < 8194 := (j 1).isLt
  have ej : j = ix2 (⟨(j 0).val, hj0⟩ : Fin 64) (⟨(j 1).val, hj1⟩ : Fin 8194) := by
    funext a; match a with | ⟨0, _⟩ => rfl | ⟨1, _⟩ => rfl
  have ee : ((cfg0.win 5).blk t).view.emb j
      = ix2 (⟨t.val * 64 + (j 0).val, by omega⟩ : Fin 4096) (⟨(j 1).val, hj1⟩ : Fin 8194) := by
    refine funext fun a => Fin.ext ?_
    match a with
    | ⟨0, _⟩ => show win0_5.index t (0 : Fin 2) * 64 + 1 * (j 0).val = t.val * 64 + (j 0).val; omega
    | ⟨1, _⟩ => show win0_5.index t (1 : Fin 2) * 8194 + 1 * (j 1).val = (j 1).val; omega
  rw [ee]
  refine (congrArg (out0_5 (iblk m c 0 t) (iblk m c 1 t) (iblk m c 2 t) (iblk m c 3 t) (iblk m c 4 t)) ej).trans ?_
  exact block_entry _ _ _ _ _ (iblk m c 0 t) (iblk m c 1 t) (iblk m c 2 t) (iblk m c 3 t) (iblk m c 4 t) t.val (by omega)
    (in_block m c t) (d0_block m c t) (d1_block m c t) (d2_block m c t) (bias_block m c t) ⟨(j 0).val, hj0⟩ ⟨(j 1).val, hj1⟩

/-- An index of the array is in point `t`'s block iff each coordinate is in the block's range on its axis. -/
theorem mem_blk (t : Fin cfg0.N) (i : S4096x8194.Idx) :
    i ∈ ((cfg0.win 5).blk t).view.set ↔ ∀ a : Fin 2, win0_5.index t a * S64x8194.size a ≤ (i a).val ∧ (i a).val < win0_5.index t a * S64x8194.size a + S64x8194.size a := by
  show i ∈ ((View.whole main_v65).slice (win0_5.rect t)).set ↔ _
  rw [View.set_slice_whole, Rect.mem_set_unit]
  exact Iff.rfl

/-- Every row lies in the block of the point numbered by the row divided by 64. -/
theorem cover (i : S4096x8194.Idx) :
    ∃ t : Fin cfg0.N, (cfg0.win 5).flush t = true ∧ i ∈ ((cfg0.win 5).blk t).view.set := by
  have hi0 : (i 0).val < 4096 := (i 0).isLt
  have hi1 : (i 1).val < 8194 := (i 1).isLt
  have hN : cfg0.N = 64 := rfl
  refine ⟨⟨(i 0).val / 64, by omega⟩, flush0_5 _, ?_⟩
  obtain ⟨-, -, -, -, -, -, -, -, -, -, e50, e51⟩ := idx_facts ⟨(i 0).val / 64, by omega⟩
  rw [mem_blk]
  intro a
  match a with
  | ⟨0, _⟩ =>
    show win0_5.index ⟨(i 0).val / 64, _⟩ (0 : Fin 2) * 64 ≤ (i 0).val ∧ (i 0).val < win0_5.index ⟨(i 0).val / 64, _⟩ (0 : Fin 2) * 64 + 64
    rw [e50]; show (i 0).val / 64 * 64 ≤ (i 0).val ∧ (i 0).val < (i 0).val / 64 * 64 + 64; omega
  | ⟨1, _⟩ =>
    show win0_5.index ⟨(i 0).val / 64, _⟩ (1 : Fin 2) * 8194 ≤ (i 1).val ∧ (i 1).val < win0_5.index ⟨(i 0).val / 64, _⟩ (1 : Fin 2) * 8194 + 8194
    rw [e51]; omega

/-- The output array after the run is the banded multiply-add. -/
theorem final (c : Dev nD) : (dats m 0 c).arrAt 5 cfg0.N = G m c :=
  (dats m 0 c).arrAt_eq_of_cover 5 (G m c) (fun t _ => flushed_eq m c t) cover

/-- The kernel's run: the result array ends at the banded multiply-add of the argument arrays, which are unchanged. -/
theorem run : θ_run defs (onTc (τ := τ) (main (F := Ideal))) ⟨m, fun _ => 0, ρ⟩ fun r => ∀ c : Dev nD,
      r.2.mem ((c : Thread nD τ).loc main_v65) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.BandValue

end
-- ==== Proof.LibScatterRead.lean ====
/-
  The result of a scatter, read at one index.

  `Host.scatter d f x idx upd` is the left fold, over the update indices in row-major order, of the
  step "replace the element at the update's result index by `f` of that element and the update's
  element; leave the array alone when the result index falls outside it". This file proves, for ANY
  shapes, dimension numbers, combiner `f` and element type, under the one hypothesis that distinct
  update indices land on distinct result indices
  (`hinj : ∀ j j' i, d.resultIdx? j idx = some i → d.resultIdx? j' idx = some i → j = j'`):

  * `Host.scatter_apply_of_hit`: when update index `j` lands on `i`
    (`d.resultIdx? j idx = some i`), the result at `i` is `f (x i) (upd j)`: the operand's element
    combined once with that single update;
  * `Host.scatter_apply_of_miss`: when no update index lands on `i`
    (`∀ j, d.resultIdx? j idx ≠ some i`), the result at `i` is the operand's element `x i`
    (this half needs no injectivity).

  The proof restates the fold as a fold over the list of update indices (every index once, each exactly
  once), then argues by induction on a list with the array generalized: a step whose result index is not
  `i` does not change the element at `i` (`foldl_step_of_miss`), and in a list without repeats the one
  step that lands on `i` is preceded and followed only by such steps (`foldl_step_of_hit`).
-/
import Idealize.ShloMosaic.PureOps.ShapeOps
import Mathlib.Data.List.Nodup
import Mathlib.Data.List.FinRange

namespace Idealize.ShloMosaic

namespace Host

variable {s si u : Shape} {α : Type} {w : Nat}

/-- One step of the scatter: the array after update index `j` has been applied to the array `r`. -/
def scatterStep (d : ScatterDims s si u) (f : α → α → α) (idx : IVec si w) (upd : u.Idx → α)
    (r : s.Idx → α) (j : u.Idx) : s.Idx → α :=
  match d.resultIdx? j idx with
  | some i => fun i' => if i' = i then f (r i) (upd j) else r i'
  | none => r

/-- A step whose update lands on `i` combines the element at `i` with the update's element. -/
theorem scatterStep_of_hit (d : ScatterDims s si u) (f : α → α → α) (idx : IVec si w) (upd : u.Idx → α)
    (r : s.Idx → α) (j : u.Idx) (i : s.Idx) (h : d.resultIdx? j idx = some i) :
    scatterStep d f idx upd r j i = f (r i) (upd j) := by
  unfold scatterStep; rw [h]; exact if_pos rfl

/-- A step whose update does not land on `i` leaves the element at `i` alone. -/
theorem scatterStep_of_miss (d : ScatterDims s si u) (f : α → α → α) (idx : IVec si w) (upd : u.Idx → α)
    (r : s.Idx → α) (j : u.Idx) (i : s.Idx) (h : d.resultIdx? j idx ≠ some i) :
    scatterStep d f idx upd r j i = r i := by
  unfold scatterStep
  cases hr : d.resultIdx? j idx with
  | none => rfl
  | some i₀ =>
    have hne : i ≠ i₀ := fun e => h (by rw [hr, e])
    exact if_neg hne

/-- The update indices in row-major order. -/
def updIndices (u : Shape) : List u.Idx := (List.finRange u.numel).map u.rowMajor.symm

theorem mem_updIndices (j : u.Idx) : j ∈ updIndices u := by
  unfold updIndices
  exact List.mem_map.2 ⟨u.rowMajor j, List.mem_finRange _, u.rowMajor.symm_apply_apply j⟩

theorem nodup_updIndices (u : Shape) : (updIndices u).Nodup := by
  unfold updIndices
  exact (List.nodup_finRange _).map u.rowMajor.symm.injective

/-- The scatter is the fold of its step over the update indices. -/
theorem scatter_eq_foldl (d : ScatterDims s si u) (f : α → α → α) (x : s.Idx → α) (idx : IVec si w)
    (upd : u.Idx → α) :
    Host.scatter d f x idx upd = (updIndices u).foldl (scatterStep d f idx upd) x := by
  unfold Host.scatter updIndices
  rw [List.foldl_map]
  rfl

/-- Steps none of which lands on `i` leave the element at `i` alone. -/
theorem foldl_step_of_miss (d : ScatterDims s si u) (f : α → α → α) (idx : IVec si w) (upd : u.Idx → α)
    (i : s.Idx) (l : List u.Idx) (hl : ∀ j ∈ l, d.resultIdx? j idx ≠ some i) (x : s.Idx → α) :
    l.foldl (scatterStep d f idx upd) x i = x i := by
  induction l generalizing x with
  | nil => rfl
  | cons j₀ l ih =>
    rw [List.foldl_cons, ih (fun j hj => hl j (List.mem_cons_of_mem _ hj)),
      scatterStep_of_miss d f idx upd x j₀ i (hl j₀ List.mem_cons_self)]

/-- In a list of update indices without repeats that contains `j`, landing on `i`, where distinct
    update indices land on distinct result indices, the steps combine the element at `i` once, with
    `j`'s update. -/
theorem foldl_step_of_hit (d : ScatterDims s si u) (f : α → α → α) (idx : IVec si w) (upd : u.Idx → α)
    (hinj : ∀ j j' i, d.resultIdx? j idx = some i → d.resultIdx? j' idx = some i → j = j')
    (j : u.Idx) (i : s.Idx) (h : d.resultIdx? j idx = some i)
    (l : List u.Idx) (hnd : l.Nodup) (hj : j ∈ l) (x : s.Idx → α) :
    l.foldl (scatterStep d f idx upd) x i = f (x i) (upd j) := by
  induction l generalizing x with
  | nil => exact absurd hj List.not_mem_nil
  | cons j₀ l ih =>
    rw [List.foldl_cons]
    rw [List.nodup_cons] at hnd
    by_cases e : j₀ = j
    · subst e
      rw [foldl_step_of_miss d f idx upd i l (fun j' hj' h' => hnd.1 (by rw [hinj j₀ j' i h h']; exact hj')),
        scatterStep_of_hit d f idx upd x j₀ i h]
    · have hj' : j ∈ l := by
        rcases List.mem_cons.1 hj with e' | e'
        · exact absurd e'.symm e
        · exact e'
      rw [ih hnd.2 hj', scatterStep_of_miss d f idx upd x j₀ i (fun h' => e (hinj j₀ j i h' h))]

/-- The scatter read at an index an update lands on: the operand's element combined with that update. -/
theorem scatter_apply_of_hit (d : ScatterDims s si u) (f : α → α → α) (x : s.Idx → α) (idx : IVec si w)
    (upd : u.Idx → α)
    (hinj : ∀ j j' i, d.resultIdx? j idx = some i → d.resultIdx? j' idx = some i → j = j')
    (j : u.Idx) (i : s.Idx) (h : d.resultIdx? j idx = some i) :
    Host.scatter d f x idx upd i = f (x i) (upd j) := by
  rw [scatter_eq_foldl]
  exact foldl_step_of_hit d f idx upd hinj j i h _ (nodup_updIndices u) (mem_updIndices j) x

/-- The scatter read at an index no update lands on: the operand's element. -/
theorem scatter_apply_of_miss (d : ScatterDims s si u) (f : α → α → α) (x : s.Idx → α) (idx : IVec si w)
    (upd : u.Idx → α) (i : s.Idx) (h : ∀ j, d.resultIdx? j idx ≠ some i) :
    Host.scatter d f x idx upd i = x i := by
  rw [scatter_eq_foldl]
  exact foldl_step_of_miss d f idx upd i _ (fun j _ => h j) x

end Host

end Idealize.ShloMosaic
-- ==== Proof.RefBand.lean ====
/-
  The reference program computes the banded multiply-add.

  The program starts from the zero array of width 8198 and, for each offset c = 0, 1, 2, adds the input
  times the c-th band diagonal (laid along every row) onto the columns [c, c + 8192) by a scatter with one
  scatter index, the constant c; it then adds the bias times the band count along every row and keeps
  columns [2, 8196). Under output column q, that is full-width column q + 2, the scatter at offset c
  contributes input column q + 2 - c times the diagonal's entry there exactly when that column exists,
  which is the band tap at shift 2 - c; the three contributions are added to zero in the order c = 0, 1, 2
  and the specification lists them in the order of the shifts 0, 1, 2, so the two sums agree by
  commutativity and associativity of addition of extended reals.

  The scatter is read at an index through the general lemmas on a scatter whose update indices land on
  distinct result indices: update index (r', n) lands on (r', n + c), which is injective, hits
  (r, q) from (r, q - c) when c ≤ q < c + 8192 and misses it otherwise.
-/
import proofs.«131223_j60662118089240_1_alg».proof.Proof.Gen.ReferenceIdeal.Read
import proofs.«131223_j60662118089240_1_alg».proof.Proof.Band
import proofs.«131223_j60662118089240_1_alg».proof.Proof.LibScatterRead
import Idealize.ShloMosaic.Lib.IdealHost

noncomputable section

namespace Cert.RefBand

open Cert.ReferenceIdeal Cert.ReferenceIdeal.Gen Cert.ReferenceIdeal.Read
open Idealize.ShloMosaic Idealize.ShloMosaic.ValueIdx

/-- The dimension numbers of the three row-window scatters. -/
abbrev sd : ScatterDims S4096x8198 S1 S4096x8192 := scatter_S4096x8198_S1_S4096x8192_01_n_1_0

theorem sd_start0 {w : Nat} (j : S4096x8192.Idx) (idx : IVec S1 w) : sd.start j idx 0 = 0 := by
  unfold ScatterDims.start
  rw [dif_neg (by decide)]

theorem sd_start1 {w : Nat} (j : S4096x8192.Idx) (idx : IVec S1 w) (c : Int) (hc : ∀ k, (idx k).toInt = c) :
    sd.start j idx 1 = c := by
  unfold ScatterDims.start
  rw [dif_pos (by decide)]
  exact hc _

theorem sd_window0 (j : S4096x8192.Idx) : sd.window j 0 = (j 0).val := by
  unfold ScatterDims.window
  rw [dif_pos (by decide)]
  rfl

theorem sd_window1 (j : S4096x8192.Idx) : sd.window j 1 = (j 1).val := by
  unfold ScatterDims.window
  rw [dif_pos (by decide)]
  rfl

/-- Where update index `(r', n)` lands when the one scatter index is the constant `c`: row `r'`, column `n + c`. -/
def land (c : Nat) (hc : c ≤ 6) (j : S4096x8192.Idx) : S4096x8198.Idx :=
  ix2 (j 0) ⟨(j 1).val + c, by have := idx2_lt1 j; omega⟩

theorem sd_resultIdx {w : Nat} (idx : IVec S1 w) (c : Nat) (hc : c ≤ 6) (hidx : ∀ k, (idx k).toInt = (c : Int))
    (j : S4096x8192.Idx) : sd.resultIdx? j idx = some (land c hc j) := by
  have h0 : sd.start j idx 0 + sd.window j 0 = ((j 0).val : Int) := by
    rw [sd_start0, sd_window0, zero_add]
  have h1 : sd.start j idx 1 + sd.window j 1 = (((j 1).val + c : Nat) : Int) := by
    rw [sd_start1 j idx c hidx, sd_window1]; push_cast; omega
  have hj0 := idx2_lt0 j
  have hj1 := idx2_lt1 j
  unfold ScatterDims.resultIdx?
  rw [dif_pos (by
    intro a
    match a with
    | ⟨0, _⟩ =>
      show (0 : Int) ≤ sd.start j idx 0 + sd.window j 0 ∧ sd.start j idx 0 + sd.window j 0 < ((4096 : Nat) : Int)
      rw [h0]; omega
    | ⟨1, _⟩ =>
      show (0 : Int) ≤ sd.start j idx 1 + sd.window j 1 ∧ sd.start j idx 1 + sd.window j 1 < ((8198 : Nat) : Int)
      rw [h1]; omega)]
  congr 1
  funext a
  match a with
  | ⟨0, _⟩ => apply Fin.ext; show (sd.start j idx 0 + sd.window j 0).toNat = (j 0).val; rw [h0]; omega
  | ⟨1, _⟩ => apply Fin.ext; show (sd.start j idx 1 + sd.window j 1).toNat = (j 1).val + c; rw [h1]; omega

theorem land_inj (c : Nat) (hc : c ≤ 6) (j j' : S4096x8192.Idx) (h : land c hc j = land c hc j') : j = j' := by
  have e0 : (land c hc j 0).val = (land c hc j' 0).val := by rw [h]
  have e1 : (land c hc j 1).val = (land c hc j' 1).val := by rw [h]
  rw [eq_ix2 j, eq_ix2 j']
  have a0 : j 0 = j' 0 := Fin.ext e0
  have a1 : j 1 = j' 1 := Fin.ext (by
    have : (j 1).val + c = (j' 1).val + c := e1
    omega)
  rw [a0, a1]

/-- One row-window scatter read at row `r`, column `q`: inside the window `[c, c + 8192)` the operand's
    element combined with the update's element at column `q - c`, outside it the operand's element. -/
theorem scatter_window_apply {α : Type} {w : Nat} (f : α → α → α) (x : S4096x8198.Idx → α) (idx : IVec S1 w)
    (upd : S4096x8192.Idx → α) (c : Nat) (hc : c ≤ 6) (hidx : ∀ k, (idx k).toInt = (c : Int))
    (r : Fin 4096) (q : Fin 8198) :
    Host.scatter sd f x idx upd (ix2 r q)
      = if h : c ≤ q.val ∧ q.val < c + 8192 then f (x (ix2 r q)) (upd (ix2 r ⟨q.val - c, by omega⟩))
        else x (ix2 r q) := by
  have hinj : ∀ j j' i, sd.resultIdx? j idx = some i → sd.resultIdx? j' idx = some i → j = j' := by
    intro j j' i hj hj'
    rw [sd_resultIdx idx c hc hidx] at hj hj'
    exact land_inj c hc j j' ((Option.some.inj hj).trans (Option.some.inj hj').symm)
  by_cases h : c ≤ q.val ∧ q.val < c + 8192
  · rw [dif_pos h]
    refine Host.scatter_apply_of_hit sd f x idx upd hinj (ix2 r ⟨q.val - c, by omega⟩) (ix2 r q) ?_
    rw [sd_resultIdx idx c hc hidx]
    congr 1
    funext a
    match a with
    | ⟨0, _⟩ => rfl
    | ⟨1, _⟩ => apply Fin.ext; show q.val - c + c = q.val; omega
  · rw [dif_neg h]
    refine Host.scatter_apply_of_miss sd f x idx upd (ix2 r q) ?_
    intro j hj
    rw [sd_resultIdx idx c hc hidx] at hj
    have e1 : (land c hc j 1).val = q.val := by rw [Option.some.inj hj]
    have hj1 := idx2_lt1 j
    have : (j 1).val + c = q.val := e1
    omega

/-! ### The three scatter indices are the constants 0, 1, 2 -/

theorem idx22 (k : S1.Idx) : (val_main_v22 (F := Ideal) k).toInt = ((0 : Nat) : Int) := by
  rw [val_main_v22_apply, val_main_c_5_apply]; decide

theorem idx46 (k : S1.Idx) : (val_main_v46 (F := Ideal) k).toInt = ((1 : Nat) : Int) := by
  rw [val_main_v46_apply, val_main_c_13_apply]; decide

theorem idx70 (k : S1.Idx) : (val_main_v70 (F := Ideal) k).toInt = ((2 : Nat) : Int) := by
  rw [val_main_v70_apply, val_main_c_21_apply]; decide

/-! ### The three updates are the input times a diagonal laid along the rows -/

theorem upd21 (x : (⟨S4096x8192, .f32⟩ : BufTy).Contents (Elt Ideal)) (w : (⟨S8198x8192, .f32⟩ : BufTy).Contents (Elt Ideal))
    (r : Fin 4096) (n : Fin 8192) :
    val_main_v21 (F := Ideal) x w (ix2 r n) = x (ix2 r n) * val_main_v18 (F := Ideal) w (ix1 n) := by
  rw [val_main_v21_apply, val_main_v20_apply, val_main_v19_apply]
  have e : idx_main_v19 (idx_main_v20 (ix2 r n)) = ix1 n := by
    funext a; match a with | ⟨0, _⟩ => rfl
  rw [e]; rfl

theorem upd45 (x : (⟨S4096x8192, .f32⟩ : BufTy).Contents (Elt Ideal)) (w : (⟨S8198x8192, .f32⟩ : BufTy).Contents (Elt Ideal))
    (r : Fin 4096) (n : Fin 8192) :
    val_main_v45 (F := Ideal) x w (ix2 r n) = x (ix2 r n) * val_main_v42 (F := Ideal) w (ix1 n) := by
  rw [val_main_v45_apply, val_main_v44_apply, val_main_v43_apply]
  have e : idx_main_v43 (idx_main_v44 (ix2 r n)) = ix1 n := by
    funext a; match a with | ⟨0, _⟩ => rfl
  rw [e]; rfl

theorem upd69 (x : (⟨S4096x8192, .f32⟩ : BufTy).Contents (Elt Ideal)) (w : (⟨S8198x8192, .f32⟩ : BufTy).Contents (Elt Ideal))
    (r : Fin 4096) (n : Fin 8192) :
    val_main_v69 (F := Ideal) x w (ix2 r n) = x (ix2 r n) * val_main_v66 (F := Ideal) w (ix1 n) := by
  rw [val_main_v69_apply, val_main_v68_apply, val_main_v67_apply]
  have e : idx_main_v67 (idx_main_v68 (ix2 r n)) = ix1 n := by
    funext a; match a with | ⟨0, _⟩ => rfl
  rw [e]; rfl

/-- The array the first scatter starts from is zero everywhere. -/
theorem zero1 (i : S4096x8198.Idx) : val_main_v1 (F := Ideal) i = 0 := by
  rw [val_main_v1_apply, val_main_cst_apply]
  exact Ideal.ofBits_zero_f32

/-- Output column `q` sits at column `q + 2` of the full-width arrays. -/
abbrev col (q : Fin 8194) : Fin 8198 := ⟨q.val + 2, by have := q.isLt; omega⟩

/-- One scatter layer read under output column `q`: the scatter at offset `c` adds to the array below it the
    band tap at shift `k = 2 - c`. -/
theorem layer (X : S4096x8198.Idx → EReal) (idx : IVec S1 32) (upd : S4096x8192.Idx → EReal)
    (x : S4096x8192.Idx → EReal) (d : S8192.Idx → EReal) (c k : Nat) (hck : c + k = 2)
    (hidx : ∀ j, (idx j).toInt = (c : Int))
    (hupd : ∀ (r : Fin 4096) (n : Fin 8192), upd (ix2 r n) = x (ix2 r n) * d (ix1 n))
    (r : Fin 4096) (q : Fin 8194) :
    Host.scatter sd (FloatOps.addf (F := Ideal) (φ := .f32)) X idx upd (ix2 r (col q))
      = X (ix2 r (col q)) + Cert.Band.tap x d k r q.val := by
  have hq := q.isLt
  rw [scatter_window_apply _ X idx upd c (by omega) hidx r (col q)]
  by_cases h : q.val + k < 8192
  · have hw : c ≤ (col q).val ∧ (col q).val < c + 8192 := by
      show c ≤ q.val + 2 ∧ q.val + 2 < c + 8192; omega
    rw [dif_pos hw, Cert.Band.tap_of_lt x d k r q.val h, hupd]
    have e : (⟨(col q).val - c, by omega⟩ : Fin 8192) = ⟨q.val + k, h⟩ :=
      Fin.ext (by show q.val + 2 - c = q.val + k; omega)
    rw [e]; rfl
  · have hw : ¬ (c ≤ (col q).val ∧ (col q).val < c + 8192) := by
      show ¬ (c ≤ q.val + 2 ∧ q.val + 2 < c + 8192); omega
    rw [dif_neg hw, Cert.Band.tap_of_not_lt x d k r q.val h, add_zero]

/-- The reference program computes the banded multiply-add of its input, the three band diagonals it gathers
    and the bias it scales by the band count. -/
theorem ref_eq_band (x : (⟨S4096x8192, .f32⟩ : BufTy).Contents (Elt Ideal)) (w : (⟨S8198x8192, .f32⟩ : BufTy).Contents (Elt Ideal)) (b : (⟨S8198, .f32⟩ : BufTy).Contents (Elt Ideal)) :
    Cert.ReferenceIdeal.Read.val_main_v79 (F := Ideal) x w b
      = Cert.Band.band x (Cert.ReferenceIdeal.Read.val_main_v18 (F := Ideal) w) (Cert.ReferenceIdeal.Read.val_main_v42 (F := Ideal) w) (Cert.ReferenceIdeal.Read.val_main_v66 (F := Ideal) w) (Cert.ReferenceIdeal.Read.val_main_v75 (F := Ideal) b) := by
  funext i
  obtain ⟨r, q, rfl⟩ : ∃ (r : Fin 4096) (q : Fin 8194), i = ix2 r q := ⟨i 0, i 1, eq_ix2 i⟩
  rw [val_main_v79_apply, val_main_v78_apply]
  have eI : idx_main_v79 (ix2 r q) = ix2 r (col q) := by
    funext a
    match a with
    | ⟨0, _⟩ => rfl
    | ⟨1, _⟩ => apply Fin.ext; show 2 + q.val = q.val + 2; omega
  rw [eI, val_main_v77_apply, val_main_v76_apply]
  have eB : idx_main_v76 (idx_main_v77 (ix2 r (col q))) = ix1 (col q) := by
    funext a; match a with | ⟨0, _⟩ => rfl
  rw [eB]
  have e71 : val_main_v71 (F := Ideal) x w (ix2 r (col q))
      = val_main_v47 (F := Ideal) x w (ix2 r (col q)) + Cert.Band.tap x (val_main_v66 (F := Ideal) w) 0 r q.val :=
    layer (val_main_v47 (F := Ideal) x w) (val_main_v70 (F := Ideal)) (val_main_v69 (F := Ideal) x w) x
      (val_main_v66 (F := Ideal) w) 2 0 rfl idx70 (upd69 x w) r q
  have e47 : val_main_v47 (F := Ideal) x w (ix2 r (col q))
      = val_main_v23 (F := Ideal) x w (ix2 r (col q)) + Cert.Band.tap x (val_main_v42 (F := Ideal) w) 1 r q.val :=
    layer (val_main_v23 (F := Ideal) x w) (val_main_v46 (F := Ideal)) (val_main_v45 (F := Ideal) x w) x
      (val_main_v42 (F := Ideal) w) 1 1 rfl idx46 (upd45 x w) r q
  have e23 : val_main_v23 (F := Ideal) x w (ix2 r (col q))
      = val_main_v1 (F := Ideal) (ix2 r (col q)) + Cert.Band.tap x (val_main_v18 (F := Ideal) w) 2 r q.val :=
    layer (val_main_v1 (F := Ideal)) (val_main_v22 (F := Ideal)) (val_main_v21 (F := Ideal) x w) x
      (val_main_v18 (F := Ideal) w) 0 2 rfl idx22 (upd21 x w) r q
  rw [e71, e47, e23, zero1, zero_add, Cert.Band.band_apply]
  show _ + _ = _ + Cert.Band.shifted _ q
  unfold Cert.Band.shifted
  generalize Cert.Band.tap x (val_main_v66 (F := Ideal) w) 0 r q.val = t0
  generalize Cert.Band.tap x (val_main_v42 (F := Ideal) w) 1 r q.val = t1
  generalize Cert.Band.tap x (val_main_v18 (F := Ideal) w) 2 r q.val = t2
  show t2 + t1 + t0 + _ = t0 + t1 + t2 + _
  rw [add_comm t2 t1, add_comm (t1 + t2) t0, add_assoc t0 t1 t2]

end Cert.RefBand
-- ==== Proof.Bridge.lean ====
/-
  The two programs compute one function.

  Both the kernel's host-side preparation and the reference read the three band diagonals of the weight by
  the same element gather at the same start indices, and both scale the bias by the same band count; these
  four operands are therefore the same terms on both sides, and they are never opened. With them, the
  kernel's output array is the banded multiply-add of the arguments (the blocks tile the rows) and the
  reference's result is the same function (the three window scatters read at an index), so from memories
  that agree on the three arguments both runs end with equal result arrays.
-/
import proofs.«131223_j60662118089240_1_alg».proof.Defs
import proofs.«131223_j60662118089240_1_alg».proof.Proof.Gen.Kernel.Frame
import proofs.«131223_j60662118089240_1_alg».proof.Proof.Gen.KernelIdeal.Frame
import proofs.«131223_j60662118089240_1_alg».proof.Proof.Gen.ReferenceIdeal.Run
import proofs.«131223_j60662118089240_1_alg».proof.Proof.Gen.ReferenceIdeal.Read
import proofs.«131223_j60662118089240_1_alg».proof.Proof.Gen.Pre_finite_inputs
import proofs.«131223_j60662118089240_1_alg».proof.Proof.KernelValue
import proofs.«131223_j60662118089240_1_alg».proof.Proof.RefBand

noncomputable section

open Idealize.ShloMosaic Idealize.ShloMosaic.TcCoe Idealize.SL.Sem

namespace Cert.Proof.Bridge

/-- Band diagonal 0 is the same gather in both programs. -/
theorem diag0_eq (w : (⟨Cert.ReferenceIdeal.S8198x8192, .f32⟩ : BufTy).Contents (Elt Ideal)) :
    Cert.KernelIdeal.HostSide.diag (F := Ideal) 0#32 w = Cert.ReferenceIdeal.Read.val_main_v18 (F := Ideal) w := rfl

/-- Band diagonal 1 is the same gather in both programs. -/
theorem diag1_eq (w : (⟨Cert.ReferenceIdeal.S8198x8192, .f32⟩ : BufTy).Contents (Elt Ideal)) :
    Cert.KernelIdeal.HostSide.diag (F := Ideal) 1#32 w = Cert.ReferenceIdeal.Read.val_main_v42 (F := Ideal) w := rfl

/-- Band diagonal 2 is the same gather in both programs. -/
theorem diag2_eq (w : (⟨Cert.ReferenceIdeal.S8198x8192, .f32⟩ : BufTy).Contents (Elt Ideal)) :
    Cert.KernelIdeal.HostSide.diag (F := Ideal) 2#32 w = Cert.ReferenceIdeal.Read.val_main_v66 (F := Ideal) w := rfl

/-- The bias times the band count is the same term in both programs. -/
theorem biasCount_eq (b : (⟨Cert.ReferenceIdeal.S8198, .f32⟩ : BufTy).Contents (Elt Ideal)) :
    Cert.KernelIdeal.HostSide.biasCount (F := Ideal) b = Cert.ReferenceIdeal.Read.val_main_v75 (F := Ideal) b := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the banded multiply-add of the arguments in their result arrays. -/
theorem algebraic : Cert.algebraic_KernelIdeal_ReferenceIdeal := by
  intro m ρ m' ρ' _ hagree
  refine ⟨fun c => Cert.KernelIdeal.BandValue.G m c, Cert.KernelIdeal.BandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, Cert.RefBand.ref_eq_band, (hagree c).1, (hagree c).2.1, (hagree c).2.2,
    ← diag0_eq, ← diag1_eq, ← diag2_eq, ← biasCount_eq]
  rfl

end Cert.Proof.Bridge

end
-- ==== Proof.lean ====
/-
  The certificate of the banded multiply-add kernel against its reference.

  The kernel streams 64-row blocks of the input through a body that multiplies three column-shifted slices of
  the block by the three band diagonals of the weight, pads them to the output width, adds them and adds the
  bias row; the reference adds the same three products onto shifted column windows of a zero array by
  scatters, adds the bias and cuts the margin columns off. Proof/Band.lean states the common function,
  Proof/KernelValue.lean (over Proof/KernelPayload.lean and Proof/KernelHost.lean) shows the kernel's result array is it,
  Proof/RefBand.lean (over Proof/LibScatterRead.lean) that the reference's is, and Proof/Bridge.lean sets the two runs
  side by side. The three frames are the generated ones (the reference's is its run with the result dropped);
  the idealization rewrote nothing, so its conjunct is trivial.
-/
import proofs.«131223_j60662118089240_1_alg».proof.Defs
import proofs.«131223_j60662118089240_1_alg».proof.Proof.Gen.Kernel
import proofs.«131223_j60662118089240_1_alg».proof.Proof.Gen.KernelIdeal
import proofs.«131223_j60662118089240_1_alg».proof.Proof.Gen.ReferenceIdeal
import proofs.«131223_j60662118089240_1_alg».proof.Proof.Gen.Pre_finite_inputs
import proofs.«131223_j60662118089240_1_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Bridge.frame_k, Bridge.frame_ki, Bridge.frame_ri, Bridge.preserves, Bridge.algebraic⟩

end Cert.Proof

end
